-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S128x128x64 : Shape := ⟨3, ![128, 128, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S128x128x64 : S_.BroadcastsInDim S128x128x64 (![] : Fin 0 → Fin S128x128x64.rank)
  reducesTo_S128x128x64_S_d0_1_2 : S128x128x64.ReducesTo [0, 1, 2] S_

variable [Facts]

def fn {F : FTy → Type} [FloatOps F] (main_arg0 : FVec F S128x64 .f32) (main_arg1 : FVec F S128x128x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S128x128x64 .f32 := Host.absf main_arg1
  let main_cst_0 : FVec F S_ .f32 := constant S_ .f32 0x7F800000#32
  let main_v5 : FVec F S128x128x64 .f32 := broadcastInDim S128x128x64 ![] bcast_S_S128x128x64 main_cst_0
  let main_v6 : IVec S128x128x64 1 := cmpf .olt main_v4 main_v5
  let main_c_1 : IVec S_ 1 := constantI S_ 1 1#1
  let main_v7 : IVec S_ 1 := (fun x v => Host.reduce IntOp.andi x v reducesTo_S128x128x64_S_d0_1_2 h_S_) main_v6 main_c_1
  let main_v8 : IVec S_ 1 := andi main_v3 main_v7
  main_v8
-- ==== Kernel.lean ====
abbrev S128x64 : Shape := ⟨2, ![128, 64]⟩
abbrev S128x128x64 : Shape := ⟨3, ![128, 128, 64]⟩
abbrev S16384x64 : Shape := ⟨2, ![16384, 64]⟩
abbrev S128x16384 : Shape := ⟨2, ![128, 16384]⟩
abbrev S4096x64 : Shape := ⟨2, ![4096, 64]⟩
abbrev S128x4096 : Shape := ⟨2, ![128, 4096]⟩
abbrev S128 : Shape := ⟨1, ![128]⟩
abbrev S128x1 : Shape := ⟨2, ![128, 1]⟩
abbrev S4096 : Shape := ⟨1, ![4096]⟩
abbrev S1x4096 : Shape := ⟨2, ![1, 4096]⟩
abbrev S128x128x128 : Shape := ⟨3, ![128, 128, 128]⟩

abbrev nBuf : Space → Nat
  | .hbm => 5
  | .vmem => 5
  | .smem => 0
  | _ => 0

abbrev bufTy : (tb : Table) → Fin (tcTables nBuf tb) → BufTy
  | .hbm, ⟨0, _⟩ => ⟨S128x64, .f32⟩
  | .hbm, ⟨1, _⟩ => ⟨S128x128x64, .f32⟩
  | .hbm, ⟨2, _⟩ => ⟨S16384x64, .f32⟩
  | .hbm, ⟨3, _⟩ => ⟨S128x16384, .f32⟩
  | .hbm, ⟨4, _⟩ => ⟨S128x128x128, .f32⟩
  | .local _ .vmem, ⟨0, _⟩ => ⟨S128x64, .f32⟩
  | .local _ .vmem, ⟨1, _⟩ => ⟨S4096x64, .f32⟩
  | .local _ .vmem, ⟨2, _⟩ => ⟨S4096x64, .f32⟩
  | .local _ .vmem, ⟨3, _⟩ => ⟨S128x4096, .f32⟩
  | .local _ .vmem, ⟨4, _⟩ => ⟨S128x4096, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x128x64_S16384x64 : S128x128x64.ShapeCasts S16384x64
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S128x64_S128 : S128x64.Reduces [1] S128
  shapeCasts_S128_S128x1 : S128.ShapeCasts S128x1
  reduces_S4096x64_S4096 : S4096x64.Reduces [1] S4096
  shapeCasts_S4096_S1x4096 : S4096.ShapeCasts S1x4096
  bitsLt_bf16_f32 : FTy.bits .bf16 < FTy.bits .f32
  broadcasts_S1x4096_S128x4096 : S1x4096.Broadcasts S128x4096
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  shapeCasts_S128x16384_S128x128x128 : S128x16384.ShapeCasts S128x128x128
  dot_S128x64_S4096x64_S128x4096_1_1_0_0_n_n_wf : DotDims.WF S128x64 S4096x64 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S16384x64.size a
  hwx0_1 : ∀ i : grid0.Coords, EltTy.bits .f32 = 32 ∨ (Rect.block (s := S16384x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x16384.size a
  hwx0_2 : ∀ i : grid0.Coords, EltTy.bits .f32 = 32 ∨ (Rect.block (s := S128x16384) S128x4096.size (cc0_transform_2 i) (hinb0_2 i)).WholeWords (EltTy.packing .f32)

variable [Facts₀]

def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x64 : Shape := ⟨2, ![128, 64]⟩
abbrev S128x128x64 : Shape := ⟨3, ![128, 128, 64]⟩
abbrev S1x128x128x64 : Shape := ⟨4, ![1, 128, 128, 64]⟩
abbrev S128x1x1x64 : Shape := ⟨4, ![128, 1, 1, 64]⟩
abbrev S128x128x128x64 : Shape := ⟨4, ![128, 128, 128, 64]⟩
abbrev S_ : Shape := ⟨0, ![]⟩
abbrev S128x128x128 : Shape := ⟨3, ![128, 128, 128]⟩

abbrev nBuf : Space → Nat
  | .hbm => 10
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x128x64, .f32⟩
  | .hbm, ⟨2, _⟩ => ⟨S1x128x128x64, .f32⟩
  | .hbm, ⟨3, _⟩ => ⟨S128x1x1x64, .f32⟩
  | .hbm, ⟨4, _⟩ => ⟨S128x128x128x64, .f32⟩
  | .hbm, ⟨5, _⟩ => ⟨S128x128x128x64, .f32⟩
  | .hbm, ⟨6, _⟩ => ⟨S128x128x128x64, .f32⟩
  | .hbm, ⟨7, _⟩ => ⟨S128x128x128x64, .f32⟩
  | .hbm, ⟨8, _⟩ => ⟨S_, .f32⟩
  | .hbm, ⟨9, _⟩ => ⟨S128x128x128, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S128x128x64_S1x128x128x64_1_2_3 : S128x128x64.BroadcastsInDim S1x128x128x64 (![1, 2, 3] : Fin 3 → Fin S1x128x128x64.rank)
  bcast_S128x64_S128x1x1x64_0_3 : S128x64.BroadcastsInDim S128x1x1x64 (![0, 3] : Fin 2 → Fin S128x1x1x64.rank)
  bcast_S1x128x128x64_S128x128x128x64_0_1_2_3 : S1x128x128x64.BroadcastsInDim S128x128x128x64 (![0, 1, 2, 3] : Fin 4 → Fin S128x128x128x64.rank)
  bcast_S128x1x1x64_S128x128x128x64_0_1_2_3 : S128x1x1x64.BroadcastsInDim S128x128x128x64 (![0, 1, 2, 3] : Fin 4 → Fin S128x128x128x64.rank)
  reducesTo_S128x128x128x64_S128x128x128_d3 : S128x128x128x64.ReducesTo [3] S128x128x128
  h_S_ : 0 < S_.numel

variable [Facts₀]

class Facts : Prop extends Facts₀ where

variable [Facts]
-- ==== Proof.SqDist.lean ====
/-
  The squared Euclidean distance between two rows of 64 extended reals, written two ways, and the
  law that joins them.

  * `direct x w`   : 0 + Σ_k (w k − x k)·(w k − x k)           — the difference squared, summed;
  * `expanded x w` : max ((Σ_k w k·w k + Σ_k x k·x k) − 2·Σ_k x k·w k) 0 — the binomial expanded
    into two squared norms and an inner product, then clamped below at zero.

  On the extended reals the two differ in general (∞ − ∞ has a conventional value, and multiplication
  does not distribute over it), but when every entry is a real number both are the same real:
  (w − x)² = w² + x² − 2xw term by term, sums of reals distribute, and a sum of squares is
  non-negative so the clamp is the identity.

  Then the same two forms as whole arrays: `expandedArr x wf` over a [128, 64] array of points and a
  [16384, 64] array of codebook rows, and `directArr x w` over the codebook as a [128, 128, 64] grid.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx
open scoped BigOperators

/-! ## The two literals -/

/-- The pattern `0x40000000` is the real number two: sign 0, biased exponent 128, significand 0. -/
theorem two_f32 : (Ideal.ofBits .f32 0x40000000#32 : EReal) = ((2 : ℝ) : EReal) := by
  simp [Ideal.ofBits, Ideal.ieee, -EReal.coe_mul]; norm_num

/-! ## One pair of rows -/

/-- The expanded form: squared norms minus twice the inner product, clamped below at zero. -/
def expanded (x w : Fin 64 → EReal) : EReal :=
  max (((∑ k, w k * w k) + (∑ k, x k * x k))
        - (Ideal.ofBits .f32 0x40000000#32 : EReal) * (∑ k, x k * w k))
      (Ideal.ofBits .f32 0x00000000#32 : EReal)

/-- The direct form: the squared differences summed from zero. -/
def direct (x w : Fin 64 → EReal) : EReal :=
  (Ideal.ofBits .f32 0x00000000#32 : EReal) + ∑ k, (w k - x k) * (w k - x k)

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over the reals: Σ w² + Σ x² − 2·Σ x·w = Σ (w − x)². -/
theorem real_expand (x w : Fin 64 → ℝ) :
    (∑ k, w k * w k) + (∑ k, x k * x k) - 2 * (∑ k, x k * w k) = ∑ k, (w k - x k) * (w k - x k) := by
  rw [Finset.mul_sum, ← Finset.sum_add_distrib, ← Finset.sum_sub_distrib]
  exact Finset.sum_congr rfl fun k _ => by ring

/-- THE LAW. On rows of real numbers the expanded form is the direct form: the binomial identity term
    by term, and the clamp at zero does nothing to a sum of squares. -/
theorem expanded_eq_direct (x w : Fin 64 → EReal) (hx : ∀ k, ∃ r : ℝ, x k = (r : EReal))
    (hw : ∀ k, ∃ r : ℝ, w k = (r : EReal)) : expanded x w = direct x w := by
  choose xr hxr using hx
  choose wr hwr using hw
  obtain rfl : x = fun k => ((xr k : ℝ) : EReal) := funext hxr
  obtain rfl : w = fun k => ((wr k : ℝ) : EReal) := funext hwr
  unfold expanded direct
  rw [two_f32, Ideal.ofBits_zero_f32, zero_add]
  have hL : ((∑ k, ((wr k : ℝ) : EReal) * ((wr k : ℝ) : EReal)) + (∑ k, ((xr k : ℝ) : EReal) * ((xr k : ℝ) : EReal)))
        - ((2 : ℝ) : EReal) * (∑ k, ((xr k : ℝ) : EReal) * ((wr k : ℝ) : EReal))
      = (((∑ k, wr k * wr k) + (∑ k, xr k * xr k) - 2 * (∑ k, xr k * wr k) : ℝ) : EReal) := by
    simp only [EReal.coe_sub, EReal.coe_add, EReal.coe_mul, coe_sum]
  have hR : (∑ k, (((wr k : ℝ) : EReal) - ((xr k : ℝ) : EReal)) * (((wr k : ℝ) : EReal) - ((xr k : ℝ) : EReal)))
      = ((∑ k, (wr k - xr k) * (wr k - xr k) : ℝ) : EReal) := by
    simp only [EReal.coe_sub, EReal.coe_mul, coe_sum]
  rw [hL, hR, real_expand]
  exact max_eq_left (by exact_mod_cast Finset.sum_nonneg fun k _ => mul_self_nonneg (wr k - xr k))

/-! ## Whole arrays -/

/-- Entry (b, n) of the expanded form over points `x` and flat codebook `wf`. -/
def expandedAt (x : (⟨2, ![128, 64]⟩ : Shape).Idx → EReal) (wf : (⟨2, ![16384, 64]⟩ : Shape).Idx → EReal)
    (b : Fin 128) (n : Fin 16384) : EReal :=
  expanded (fun k => x (ix2 b k)) (fun k => wf (ix2 n k))

/-- The [128, 16384] array of expanded-form distances. -/
def expandedArr (x : (⟨2, ![128, 64]⟩ : Shape).Idx → EReal) (wf : (⟨2, ![16384, 64]⟩ : Shape).Idx → EReal) :
    (⟨2, ![128, 16384]⟩ : Shape).Idx → EReal :=
  fun j => expandedAt x wf (j 0) (j 1)

/-- Entry (b, r, c) of the direct form over points `x` and the codebook grid `w`. -/
def directAt (x : (⟨2, ![128, 64]⟩ : Shape).Idx → EReal) (w : (⟨3, ![128, 128, 64]⟩ : Shape).Idx → EReal)
    (b r c : Fin 128) : EReal :=
  direct (fun k => x (ix2 b k)) (fun k => w (ix3 r c k))

/-- The [128, 128, 128] array of direct-form distances. -/
def directArr (x : (⟨2, ![128, 64]⟩ : Shape).Idx → EReal) (w : (⟨3, ![128, 128, 64]⟩ : Shape).Idx → EReal) :
    (⟨3, ![128, 128, 128]⟩ : Shape).Idx → EReal :=
  fun i => directAt x w (i 0) (i 1) (i 2)

end Cert.SqDist

end
-- ==== Proof.Payload.lean ====
/-
  What the kernel body stores, read one entry at a time.

  The body loads a [128, 64] block of points `x` and a [4096, 64] block of codebook rows `w`, and stores
  the [128, 4096] block whose entry (p, q) is

      max ((Σ_k w(q,k)·w(q,k) + Σ_k x(p,k)·x(p,k)) − 2·Σ_k x(p,k)·w(q,k)) 0

  — the expanded squared distance between row p of `x` and row q of `w`. The pieces: a lane sum read as
  a sum over the 64 lanes; a row of norms laid along the lanes and repeated down the rows; a column of
  norms laid down the rows and repeated along the lanes; the matrix product (both operands contracted
  on their lane axis, into a zero accumulator) as the inner product of a row with a row; a change of
  float format is the identity on extended reals.
-/
import proofs.«171322_j85040352461292_2_alg».proof.Proof.Gen.KernelIdeal.Skeleton
import proofs.«171322_j85040352461292_2_alg».proof.Proof.SqDist
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.SqDist
open scoped BigOperators

/-! ## Two column layouts -/

/-- An `[a]` vector cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum -/

/-- The sum over the 64 lanes of an `[n, 64]` vector, read at row `r`: the sum of that row. -/
theorem lanesum_apply {n : ℕ} (src : FVec Ideal ⟨2, ![n, 64]⟩ .f32)
    (h : Shape.Reduces ⟨2, ![n, 64]⟩ [1] ⟨1, ![n]⟩) (hφ : FKind.Formats .f32)
    (hacc : (0x00000000#32 : BitVec 32) = FKind.neutral .add .f32 hφ) (r : Fin n) :
    multiReduction .add [1] ⟨1, ![n]⟩ src 0x00000000#32 h hφ hacc (ix1 r) = ∑ k : Fin 64, src (ix2 r k) := by
  refine (Ideal.multiReduction_add_single src _ h hφ hacc (ix1 r)).trans ?_
  refine Finset.sum_congr rfl fun k _ => congrArg src ?_
  funext a
  apply Fin.ext
  match a with
  | ⟨0, _⟩ => rfl
  | ⟨1, _⟩ => rfl

/-! ## The matrix product, entry by entry -/

/-- The product's dimension numbers: each operand contracted on its lane axis, rows free. -/
abbrev DD := dot_S128x64_S4096x64_S128x4096_1_1_0_0_n_n

theorem lhs_row (i : S128x4096.Idx) (q : DD.contr.Idx) : (DD.lhsIdx i q 0).val = (i 0).val := by
  unfold DotDims.lhsIdx
  rw [dif_neg (show ¬(0 : Fin S128x64.rank) ∈ DD.lhsBatch by decide),
    dif_pos (show (0 : Fin S128x64.rank) ∈ DD.lhsNonContracting by decide)]
  rfl
theorem lhs_lane (i : S128x4096.Idx) (q : DD.contr.Idx) : (DD.lhsIdx i q 1).val = (q ⟨0, by decide⟩).val :=
  DD.lhsIdx_val_of_single rfl i q
theorem rhs_row (i : S128x4096.Idx) (q : DD.contr.Idx) : (DD.rhsIdx i q 0).val = (i 1).val := by
  unfold DotDims.rhsIdx
  rw [dif_neg (show ¬(0 : Fin S4096x64.rank) ∈ DD.rhsBatch by decide),
    dif_pos (show (0 : Fin S4096x64.rank) ∈ DD.rhsNonContracting by decide)]
  rfl
theorem rhs_lane (i : S128x4096.Idx) (q : DD.contr.Idx) : (DD.rhsIdx i q 1).val = (q ⟨0, by decide⟩).val :=
  DD.rhsIdx_val_of_single rfl i q

/-- Entry (p, q) of the product into a zero accumulator is the inner product of row p of the left
    operand with row q of the right. -/
theorem inner_apply (a : FVec Ideal S128x64 .bf16) (b : FVec Ideal S4096x64 .bf16) (p : Fin 128) (q : Fin 4096) :
    matmul DD none a b (constant S128x4096 .f32 0x00000000#32) (ix2 p q) = ∑ k : Fin 64, a (ix2 p k) * b (ix2 q k) := by
  refine (Ideal.matmul_constant_zero_apply DD none a b (ix2 p q)).trans ?_
  rw [← Equiv.sum_comp (contrEquiv1 DD 64 rfl rfl).symm]
  refine Finset.sum_congr rfl fun k _ => ?_
  have hk := contrEquiv1_symm_val DD 64 rfl rfl k
  have el : DD.lhsIdx (ix2 p q) ((contrEquiv1 DD 64 rfl rfl).symm k) = ix2 p k := funext fun ax => Fin.ext (by
    match ax with
    | ⟨0, _⟩ => exact lhs_row _ _
    | ⟨1, _⟩ => exact (lhs_lane _ _).trans hk)
  have er : DD.rhsIdx (ix2 p q) ((contrEquiv1 DD 64 rfl rfl).symm k) = ix2 q k := funext fun ax => Fin.ext (by
    match ax with
    | ⟨0, _⟩ => exact rhs_row _ _
    | ⟨1, _⟩ => exact (rhs_lane _ _).trans hk)
  rw [el, er]

/-! ## The stored block, entry by entry -/

/-- Entry (p, q) of what the body stores is the expanded squared distance between row p of the points
    block and row q of the codebook block. -/
theorem pay_apply (x0 : Vec Ideal S128x64 .f32) (x1 : Vec Ideal S4096x64 .f32) (p : Fin 128) (q : Fin 4096) :
    k0_pay1 (F := Ideal) x0 x1 (ix2 p q) = expanded (fun k => x0 (ix2 p k)) (fun k => x1 (ix2 q k)) := by
  unfold k0_pay1 expanded
  dsimp only
  rw [shapeCast_self x1]
  refine congrArg₂ max (congrArg₂ (· - ·) (congrArg₂ (· + ·) ?_ ?_) (congrArg₂ (· * ·) rfl ?_)) rfl
  · -- the codebook rows' squared norms, laid along the lanes and repeated down the rows
    refine (broadcastTo_1b_ab_apply _ _ p q).trans ?_
    refine (shapeCast_a_1a_apply _ _ (0 : Fin 1) q).trans ?_
    exact lanesum_apply (mulf x1 x1) _ _ _ q
  · -- the points' squared norms, laid down the rows and repeated along the lanes
    refine (broadcastTo_a1_ab_apply _ _ p q).trans ?_
    refine (shapeCast_a_a1_apply _ _ p (0 : Fin 1)).trans ?_
    exact lanesum_apply (mulf x0 x0) _ _ _ p
  · -- the inner products; the change of float format is the identity
    exact inner_apply (truncf .bf16 x0 bitsLt_bf16_f32) (truncf .bf16 x1 bitsLt_bf16_f32) p q

end Cert.KernelIdeal.Payload

end
-- ==== Proof.Grid.lean ====
/-
  Flattening the codebook grid and cutting the distance array back into a grid are both row-major
  re-indexings: flat row n = 128·r + c is grid cell (r, c), on the way in and on the way out. So the
  expanded-form array over the flattened codebook, cut back into [128, 128, 128], has at (b, r, c) the
  expanded squared distance between point b and codebook cell (r, c); and when every entry of the points and
  of the codebook is a real number that is the direct form (`SqDist.expanded_eq_direct`).
-/
import proofs.«171322_j85040352461292_2_alg».proof.Proof.SqDist
import Idealize.ShloMosaic.Lib.Pipeline.Value

noncomputable section

namespace Cert.SqDist

open Idealize.ShloMosaic Idealize.ShloMosaic.ValueIdx
open scoped BigOperators

/-- Row 128·r + c of the flattened codebook is cell (r, c) of the grid. -/
theorem flat_row (w : (⟨3, ![128, 128, 64]⟩ : Shape).Idx → EReal)
    (h : (⟨3, ![128, 128, 64]⟩ : Shape).ShapeCasts ⟨2, ![16384, 64]⟩) (r c : Fin 128)
    (hn : r.val * 128 + c.val < 16384) (k : Fin 64) :
    shapeCast ⟨2, ![16384, 64]⟩ w h (ix2 (⟨r.val * 128 + c.val, hn⟩ : Fin 16384) k) = w (ix3 r c k) :=
  shapeCast_apply w h _ (ix3 r c k) (by
    rw [Shape.rowMajor_val_two, Shape.rowMajor_val_three]
    rfl)

/-- THE WHOLE RESULT. On points and a codebook of real numbers, the expanded-form array over the flattened
    codebook, cut back into the grid, is the direct-form array. -/
theorem expandedArr_grid (x : (⟨2, ![128, 64]⟩ : Shape).Idx → EReal) (w : (⟨3, ![128, 128, 64]⟩ : Shape).Idx → EReal)
    (h1 : (⟨3, ![128, 128, 64]⟩ : Shape).ShapeCasts ⟨2, ![16384, 64]⟩)
    (h2 : (⟨2, ![128, 16384]⟩ : Shape).ShapeCasts ⟨3, ![128, 128, 128]⟩)
    (hx : ∀ i, ∃ r : ℝ, x i = (r : EReal)) (hw : ∀ i, ∃ r : ℝ, w i = (r : EReal)) :
    shapeCast ⟨3, ![128, 128, 128]⟩ (expandedArr x (shapeCast ⟨2, ![16384, 64]⟩ w h1)) h2 = directArr x w := by
  funext i
  obtain ⟨b, r, c, rfl⟩ : ∃ (b r c : Fin 128), i = ix3 b r c := ⟨i 0, i 1, i 2, eq_ix3 i⟩
  have hn : r.val * 128 + c.val < 16384 := by have := r.isLt; have := c.isLt; omega
  refine (shapeCast_apply _ h2 (ix3 b r c) (ix2 b (⟨r.val * 128 + c.val, hn⟩ : Fin 16384)) ?_).trans ?_
  · rw [Shape.rowMajor_val_two, Shape.rowMajor_val_three]
    show b.val * 16384 + (r.val * 128 + c.val) = (b.val * 128 + r.val) * 128 + c.val
    omega
  · show expanded (fun k => x (ix2 b k))
        (fun k => shapeCast ⟨2, ![16384, 64]⟩ w h1 (ix2 (⟨r.val * 128 + c.val, hn⟩ : Fin 16384) k))
      = direct (fun k => x (ix2 b k)) (fun k => w (ix3 r c k))
    rw [funext fun k => flat_row w h1 r c hn k]
    exact expanded_eq_direct _ _ (fun k => hx _) (fun k => hw _)

end Cert.SqDist

end
-- ==== Proof.Blocks.lean ====
/-
  From the blocks each grid point writes to the whole result.

  The grid has four points. Point t stages all of the points array `x` (block (0, 0) of a [128, 64] array),
  rows 4096·t … 4096·t + 4095 of the flat codebook (block (t, 0) of a [16384, 64] array), and writes back
  columns 4096·t … 4096·t + 4095 of the [128, 16384] distance array (block (0, t)). Entry (p, q) of the
  block point t writes is the expanded squared distance between row p of `x` and row q of its codebook
  block, that is, entry (p, 4096·t + q) of ONE whole-array function of `x` and the flat codebook. The
  four column blocks tile the array (column n is in block n / 4096), so after the run the array is that
  function. Before the region the codebook grid [128, 128, 64] is flattened row-major to [16384, 64]; after it the
  [128, 16384] array is cut row-major into [128, 128, 128].
-/
import proofs.«171322_j85040352461292_2_alg».proof.Proof.Gen.KernelIdeal.Frame
import proofs.«171322_j85040352461292_2_alg».proof.Proof.Payload
import proofs.«171322_j85040352461292_2_alg».proof.Proof.Grid
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.SqDist Cert.KernelIdeal.Payload
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point t: the points window at block (0, 0), the codebook window
    at block (t', 0) and the output window at block (0, t') for the same t' ≤ 3. -/
theorem block_positions : ∀ t : Fin cfg0.N,
    win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 3 :=
  (by decide +kernel : ∀ t : Fin grid0.N, _)

/-- Every column block is some point's. -/
theorem block_onto : ∀ q : Fin 4, ∃ t : Fin cfg0.N, win0_2.index t = ![0, q.val] :=
  (by decide +kernel : ∀ q : Fin 4, ∃ t : Fin grid0.N, win0_2.index t = ![0, q.val])

/-- WHAT POINT t WRITES BACK is block t of the expanded-form array of the points and the flat codebook as the
    region finds them. -/
theorem flushed_eq (c : Dev nD) (t : Fin cfg0.N) :
    (dats m 0 c).flushed 2 t
      = ((cfg0.win 2).blk t).view.read (Elt Ideal) (expandedArr (V m c main_arg0) (V m c main_v0)) := by
  show (cfg0.win 2).cut (grid0.coords t) ((dats m 0 c).after 2 t) = _
  rw [after0_2]
  unfold out0_2
  rw [View.canon_unit_zero zero_offsets]
  simp only [View.ld_unit_zero (S := S128x64) zero_offsets, View.ld_unit_zero (S := S4096x64) zero_offsets]
  obtain ⟨e0, e1, e2, e3, e4, e5⟩ := block_positions t
  funext j
  obtain ⟨p, q, rfl⟩ : ∃ (p : Fin 128) (q : Fin 4096), j = ix2 p q := ⟨j 0, j 1, eq_ix2 j⟩
  show k0_pay1 (iblk m c 0 t) (iblk m c 1 t) (ix2 p q)
      = expandedArr (V m c main_arg0) (V m c main_v0) (((cfg0.win 2).blk t).view.emb (ix2 p q))
  refine (pay_apply (iblk m c 0 t) (iblk m c 1 t) p q).trans ?_
  show expanded (fun k => V m c main_arg0 (((cfg0.win 0).blk t).view.emb (ix2 p k)))
        (fun k => V m c main_v0 (((cfg0.win 1).blk t).view.emb (ix2 q k)))
      = expanded (fun k => V m c main_arg0 (ix2 ((((cfg0.win 2).blk t).view.emb (ix2 p q)) 0) k))
        (fun k => V m c main_v0 (ix2 ((((cfg0.win 2).blk t).view.emb (ix2 p q)) 1) k))
  -- row p of the staged points is row p of the points array: the points window never moves
  have h0 : ∀ k : Fin 64, ((cfg0.win 0).blk t).view.emb (ix2 p k)
      = ix2 ((((cfg0.win 2).blk t).view.emb (ix2 p q)) 0) k := by
    intro k; funext a; apply Fin.ext
    match a with
    | ⟨0, _⟩ =>
      show win0_0.index t (0 : Fin 2) * 128 + 1 * p.val = win0_2.index t (0 : Fin 2) * 128 + 1 * p.val
      omega
    | ⟨1, _⟩ =>
      show win0_0.index t (1 : Fin 2) * 64 + 1 * k.val = k.val
      omega
  -- row q of the staged codebook block is the flat codebook's row under output column q of the same block
  have h1 : ∀ k : Fin 64, ((cfg0.win 1).blk t).view.emb (ix2 q k)
      = ix2 ((((cfg0.win 2).blk t).view.emb (ix2 p q)) 1) k := by
    intro k; funext a; apply Fin.ext
    match a with
    | ⟨0, _⟩ =>
      show win0_1.index t (0 : Fin 2) * 4096 + 1 * q.val = win0_2.index t (1 : Fin 2) * 4096 + 1 * q.val
      omega
    | ⟨1, _⟩ =>
      show win0_1.index t (1 : Fin 2) * 64 + 1 * k.val = k.val
      omega
  exact congrArg₂ expanded (funext fun k => congrArg (fun i => V m c main_arg0 i) (h0 k))
    (funext fun k => congrArg (fun i => V m c main_v0 i) (h1 k))

/-- An index of the array is in point t's block iff each coordinate is in the block's range on its axis. -/
theorem mem_blk (t : Fin cfg0.N) (i : S128x16384.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v1).slice (win0_2.rect t)).set ↔ _
  rw [View.set_slice_whole, Rect.mem_set_unit]
  exact Iff.rfl

/-- The column blocks tile the array: column n lies in block n / 4096. -/
theorem covered (i : S128x16384.Idx) :
    ∃ t : Fin cfg0.N, (cfg0.win 2).flush t = true ∧ i ∈ ((cfg0.win 2).blk t).view.set := by
  have hi0 : (i 0).val < 128 := (i 0).isLt
  have hi1 : (i 1).val < 16384 := (i 1).isLt
  obtain ⟨t, ht⟩ := block_onto ⟨(i 1).val / 4096, by omega⟩
  have q0 : win0_2.index t (0 : Fin 2) = 0 := congrFun ht 0
  have q1 : win0_2.index t (1 : Fin 2) = (i 1).val / 4096 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-- THE DISTANCE ARRAY after the region: the expanded form of the points and the flat codebook. -/
theorem final (c : Dev nD) :
    (dats m 0 c).arrAt 2 cfg0.N = expandedArr (V m c main_arg0) (V m c main_v0) :=
  (dats m 0 c).arrAt_eq_of_cover 2 (expandedArr (V m c main_arg0) (V m c main_v0))
    (fun t _ => flushed_eq m c t) covered

/-- The flat codebook the region finds is the codebook grid cast row-major to [16384, 64]. -/
theorem flat_codebook (c : Dev nD) :
    (V m c main_v0 : S16384x64.Idx → EReal)
      = shapeCast S16384x64 (m ((c : Thread nD τ).loc main_arg1)) shapeCasts_S128x128x64_S16384x64 := by
  show StableHlo.after hostOps0 (fun b => m (c, b)) (Proc.devRef .tc main_v0) = _
  after_results
  rfl

/-- The result after the lines that follow the region: the distance array cast row-major to [128, 128, 128]. -/
theorem tail_result (c : Dev nD) :
    (Pipeline.afterTail₀ cfgs (dats m) 0 (V0 m) [hostOps1] c main_v2 : S128x128x128.Idx → EReal)
      = shapeCast S128x128x128 ((dats m 0 c).arrAt 2 cfg0.N) shapeCasts_S128x16384_S128x128x128 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 2
  funext i
  show shapeCast S128x128x128 (Pipeline.withArrays spec0 c (V0 m c) (fun w => (dats m 0 c).arrAt w cfg0.N)
      (Proc.devRef .tc (Pipeline.arrRef spec0 2))) shapeCasts_S128x16384_S128x128x128 i = _
  rw [e]

/-- THE RESULT of the whole program on real inputs: the direct-form array of the points and the codebook grid
    as launched. -/
theorem result_eq (c : Dev nD)
    (hx : ∀ i, ∃ r : ℝ, m ((c : Thread nD τ).loc main_arg0) i = (r : EReal))
    (hw : ∀ i, ∃ r : ℝ, m ((c : Thread nD τ).loc main_arg1) i = (r : EReal)) :
    (Pipeline.afterTail₀ cfgs (dats m) 0 (V0 m) [hostOps1] c main_v2 : S128x128x128.Idx → EReal)
      = directArr (m ((c : Thread nD τ).loc main_arg0)) (m ((c : Thread nD τ).loc main_arg1)) := by
  rw [tail_result, final, flat_codebook, V_main_arg0]
  exact expandedArr_grid _ _ _ _ hx hw

/-- The program's run, read: every weakly fair execution terminates with the result at the direct-form array
    and the arguments unchanged, when the arguments hold real numbers. -/
theorem run (hx : ∀ (c : Dev nD) i, ∃ r : ℝ, m ((c : Thread nD τ).loc main_arg0) i = (r : EReal))
    (hw : ∀ (c : Dev nD) i, ∃ r : ℝ, m ((c : Thread nD τ).loc main_arg1) i = (r : EReal)) :
    θ_run defs (onTc (τ := τ) (main (F := Ideal))) ⟨m, fun _ => 0, ρ⟩ fun r => ∀ c : Dev nD,
      r.2.mem ((c.tc : Thread nD τ).loc main_v2)
          = directArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v2 (Pipeline.mem_restRefs_of main_v2 (by decide) (by decide))).trans (result_eq m c (hx c) (hw c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Blocks

end
-- ==== Proof.RefValue.lean ====
/-
  The reference's result is the direct form of the squared distance.

  The reference repeats the codebook grid over a new leading axis of points and the points over two
  new grid axes, subtracts, squares, and sums the last axis from zero. Read at an entry (b, r, c), each
  repetition drops the coordinates it added, so the entry is 0 + Σ_k (w(r,c,k) − x(b,k))·(w(r,c,k) − x(b,k)).
-/
import proofs.«171322_j85040352461292_2_alg».proof.Proof.Gen.ReferenceIdeal.Read
import proofs.«171322_j85040352461292_2_alg».proof.Proof.SqDist

noncomputable section

namespace Cert.ReferenceIdeal.RefValue

open Cert.ReferenceIdeal Cert.ReferenceIdeal.Read Idealize.ShloMosaic Idealize.ShloMosaic.ValueIdx Cert.SqDist
open scoped BigOperators

/-- The last stage of the reference, as a whole array, is the direct form. -/
theorem val_eq_direct (x0 : (⟨S128x64, .f32⟩ : BufTy).Contents (Elt Ideal)) (x1 : (⟨S128x128x64, .f32⟩ : BufTy).Contents (Elt Ideal)) :
    val_main_v6 (F := Ideal) x0 x1 = directArr x0 x1 := by
  funext i
  obtain ⟨b, r, c, rfl⟩ : ∃ (b r c : Fin 128), i = ix3 b r c := ⟨i 0, i 1, i 2, eq_ix3 i⟩
  rw [val_main_v6_apply, val_main_cst_apply]
  show _ = direct (fun k => x0 (ix2 b k)) (fun k => x1 (ix3 r c k))
  unfold direct
  refine congrArg₂ (· + ·) rfl (Finset.sum_congr rfl fun k _ => ?_)
  rw [val_main_v5_apply, val_main_v4_apply, val_main_v2_apply, val_main_v0_apply, val_main_v3_apply, val_main_v1_apply]
  have e1 : idx_main_v0 (idx_main_v2 (idx_main_v6 (ix3 b r c) k)) = ix3 r c k := funext fun a => Fin.ext (by
    match a with | ⟨0, _⟩ => rfl | ⟨1, _⟩ => rfl | ⟨2, _⟩ => rfl)
  have e0 : idx_main_v1 (idx_main_v3 (idx_main_v6 (ix3 b r c) k)) = ix2 b k := funext fun a => Fin.ext (by
    match a with | ⟨0, _⟩ => rfl | ⟨1, _⟩ => rfl)
  rw [e1, e0]
  rfl

end Cert.ReferenceIdeal.RefValue

end
-- ==== Proof.Finite.lean ====
/-
  The precondition says every entry of both inputs is a real number.

  It is the conjunction of two "all entries satisfy |x| < +∞" tests. A conjunction of bits that is 1 has both
  bits 1; an "all" that is 1 has every entry's bit 1; and on the extended reals |x| = max x (−x) is below the
  top element exactly when x is neither infinity, that is, when x is (the image of) a real number.
-/
import proofs.«171322_j85040352461292_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

/-- The rank-0 shape has one index. -/
instance : Subsingleton S_.Idx := ⟨fun a b => funext fun d => d.elim0⟩

/-- The pattern `0x7F800000` is the top element: all-ones exponent, zero significand, sign 0. -/
theorem inf_f32 : (Ideal.ofBits .f32 0x7F800000#32 : EReal) = ⊤ := by
  simp [Ideal.ofBits, Ideal.ieee]

/-- An extended real whose absolute value is below the top element is a real number. -/
theorem real_of_abs_lt_top (x : EReal)
    (h : Ideal.cmp .olt (max x (-x)) (Ideal.ofBits .f32 0x7F800000#32 : EReal) = 1#1) : ∃ r : ℝ, x = (r : EReal) := by
  rw [inf_f32] at h
  induction x using EReal.rec with
  | bot => simp [Ideal.cmp] at h
  | top => simp [Ideal.cmp] at h
  | coe r => exact ⟨r, rfl⟩

/-- THE PRECONDITION, READ: both inputs hold real numbers only. -/
theorem real_of_pre (a0 : FVec Ideal S128x64 .f32) (a1 : FVec Ideal S128x128x64 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨h1, h2⟩ := IntOp.andi_eq_one.1 h0
  exact ⟨fun i => real_of_abs_lt_top _ (Host.reduce_andi_all _ _ _ _ ix0 h1 i),
    fun i => real_of_abs_lt_top _ (Host.reduce_andi_all _ _ _ _ ix0 h2 i)⟩

end Cert.Pre_finite_inputs.Finite

end
-- ==== Proof.lean ====
/-
  The certificate of a squared-distance kernel against its reference.

  Both programs take 128 points `x` of dimension 64 and a 128 × 128 grid `w` of codebook vectors of
  dimension 64 and return the 128 × 128 × 128 array of squared Euclidean distances ‖w(r,c) − x(b)‖².

  The reference subtracts, squares and sums: out(b, r, c) = 0 + Σ_k (w(r,c,k) − x(b,k))².
  The kernel flattens the grid to 16384 rows, and for each of four blocks of 4096 rows computes the
  squared norms of the rows of `x` and of the block, their inner products by one matrix product, and stores
  max((‖w‖² + ‖x‖²) − 2·x·w, 0); the [128, 16384] result is cut back into the grid.

  At the ideal instance every float is an extended real and every operation exact, so the matrix product
  is the inner product, a lane sum is a sum, and a change of float format is the identity. The two
  results are then equal because, on real numbers, (w − x)² = w² + x² − 2xw summed over k, and the clamp
  at zero is the identity on a sum of squares. That law needs the entries to be real numbers (on the
  extended reals ∞ − ∞ is a convention and products do not distribute over it): the precondition,
  every input finite, gives exactly that.

  The three programs run, fault-free, leaving their arguments unchanged: the kernel's two readings by
  their generated frames, the reference by its generated run. The idealization rewrote nothing, so
  `preserves` is trivial.
-/
import proofs.«171322_j85040352461292_2_alg».proof.Defs
import proofs.«171322_j85040352461292_2_alg».proof.Proof.Gen.Kernel
import proofs.«171322_j85040352461292_2_alg».proof.Proof.Gen.Kernel.Skeleton
import proofs.«171322_j85040352461292_2_alg».proof.Proof.Gen.Kernel.Launch
import proofs.«171322_j85040352461292_2_alg».proof.Proof.Gen.Kernel.Points
import proofs.«171322_j85040352461292_2_alg».proof.Proof.Gen.Kernel.Frame
import proofs.«171322_j85040352461292_2_alg».proof.Proof.Gen.KernelIdeal
import proofs.«171322_j85040352461292_2_alg».proof.Proof.Gen.KernelIdeal.Skeleton
import proofs.«171322_j85040352461292_2_alg».proof.Proof.Gen.KernelIdeal.Launch
import proofs.«171322_j85040352461292_2_alg».proof.Proof.Gen.KernelIdeal.Points
import proofs.«171322_j85040352461292_2_alg».proof.Proof.Gen.KernelIdeal.Frame
import proofs.«171322_j85040352461292_2_alg».proof.Proof.Gen.ReferenceIdeal
import proofs.«171322_j85040352461292_2_alg».proof.Proof.Gen.ReferenceIdeal.Run
import proofs.«171322_j85040352461292_2_alg».proof.Proof.Gen.ReferenceIdeal.Read
import proofs.«171322_j85040352461292_2_alg».proof.Proof.Gen.Pre_finite_inputs
import proofs.«171322_j85040352461292_2_alg».proof.Proof.Blocks
import proofs.«171322_j85040352461292_2_alg».proof.Proof.RefValue
import proofs.«171322_j85040352461292_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's result and the reference's are the same array: the direct-form squared
    distances of the points and the codebook grid. -/
theorem algebraic : Cert.algebraic_KernelIdeal_ReferenceIdeal := by
  intro m ρ m' ρ' hpre hagree
  have hreal := fun c : Dev Cert.KernelIdeal.nD => Cert.Pre_finite_inputs.Finite.real_of_pre _ _ (hpre c)
  refine ⟨_, Cert.KernelIdeal.Blocks.run m ρ (fun c => (hreal c).1) (fun c => (hreal c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.val_eq_direct,
    (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
